-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x300 : Shape := ⟨2, ![8192, 300]⟩
abbrev S1000000x1 : Shape := ⟨2, ![1000000, 1]⟩
abbrev S100x1 : Shape := ⟨2, ![100, 1]⟩
abbrev S1000000x64 : Shape := ⟨2, ![1000000, 64]⟩
abbrev S100x64 : Shape := ⟨2, ![100, 64]⟩
abbrev S1 : Shape := ⟨1, ![1]⟩
abbrev S_ : Shape := ⟨0, ![]⟩

class Facts : Prop where
  bcast_S_S8192x300 : S_.BroadcastsInDim S8192x300 (![] : Fin 0 → Fin S8192x300.rank)
  reducesTo_S8192x300_S_d0_1 : S8192x300.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_
  bcast_S_S100x1 : S_.BroadcastsInDim S100x1 (![] : Fin 0 → Fin S100x1.rank)
  reducesTo_S100x1_S_d0_1 : S100x1.ReducesTo [0, 1] S_
  bcast_S_S1000000x64 : S_.BroadcastsInDim S1000000x64 (![] : Fin 0 → Fin S1000000x64.rank)
  reducesTo_S1000000x64_S_d0_1 : S1000000x64.ReducesTo [0, 1] S_
  bcast_S_S100x64 : S_.BroadcastsInDim S100x64 (![] : Fin 0 → Fin S100x64.rank)
  reducesTo_S100x64_S_d0_1 : S100x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S100x64 .f32) (main_arg5 : FVec F S1 .f32) (main_v13 : IVec S_ 1) (main_v16 : IVec S1000000x64 1) : IVec S_ 1 :=
  let main_c_5 : IVec S_ 1 := constantI S_ 1 1#1
  let main_v17 : IVec S_ 1 := (fun x v => Host.reduce IntOp.andi x v reducesTo_S1000000x64_S_d0_1 h_S_) main_v16 main_c_5
  let main_v18 : IVec S_ 1 := andi main_v13 main_v17
  let main_v19 : FVec F S100x64 .f32 := Host.absf main_arg4
  let main_cst_6 : FVec F S_ .f32 := constant S_ .f32 0x7F800000#32
  let main_v20 : FVec F S100x64 .f32 := broadcastInDim S100x64 ![] bcast_S_S100x64 main_cst_6
  let main_v21 : IVec S100x64 1 := cmpf .olt main_v19 main_v20
  let main_c_7 : IVec S_ 1 := constantI S_ 1 1#1
  let main_v22 : IVec S_ 1 := (fun x v => Host.reduce IntOp.andi x v reducesTo_S100x64_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8192x300 .f32) (main_arg1 : FVec F S1000000x1 .f32) (main_arg2 : FVec F S100x1 .f32) (main_arg3 : FVec F S1000000x64 .f32) (main_arg4 : FVec F S100x64 .f32) (main_arg5 : FVec F S1 .f32) : IVec S_ 1 :=
  let main_v0 : FVec F S8192x300 .f32 := Host.absf main_arg0
  let main_cst : FVec F S_ .f32 := constant S_ .f32 0x7F800000#32
  let main_v1 : FVec F S8192x300 .f32 := broadcastInDim S8192x300 ![] bcast_S_S8192x300 main_cst
  let main_v2 : IVec S8192x300 1 := cmpf .olt main_v0 main_v1
  let main_c : IVec S_ 1 := constantI S_ 1 1#1
  let main_v3 : IVec S_ 1 := (fun x v => Host.reduce IntOp.andi x v reducesTo_S8192x300_S_d0_1 h_S_) main_v2 main_c
  let main_v4 : FVec F S1000000x1 .f32 := Host.absf main_arg1
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  let main_v9 : FVec F S100x1 .f32 := Host.absf main_arg2
  let main_cst_2 : FVec F S_ .f32 := constant S_ .f32 0x7F800000#32
  let main_v10 : FVec F S100x1 .f32 := broadcastInDim S100x1 ![] bcast_S_S100x1 main_cst_2
  let main_v11 : IVec S100x1 1 := cmpf .olt main_v9 main_v10
  let main_c_3 : IVec S_ 1 := constantI S_ 1 1#1
  let main_v12 : IVec S_ 1 := (fun x v => Host.reduce IntOp.andi x v reducesTo_S100x1_S_d0_1 h_S_) main_v11 main_c_3
  let main_v13 : IVec S_ 1 := andi main_v8 main_v12
  let main_v14 : FVec F S1000000x64 .f32 := Host.absf main_arg3
  let main_cst_4 : FVec F S_ .f32 := constant S_ .f32 0x7F800000#32
  let main_v15 : FVec F S1000000x64 .f32 := broadcastInDim S1000000x64 ![] bcast_S_S1000000x64 main_cst_4
  let main_v16 : IVec S1000000x64 1 := cmpf .olt main_v14 main_v15
  fn_part1 (F := F) main_arg4 main_arg5 main_v13 main_v16
-- ==== Kernel.lean ====
abbrev S8192x300 : Shape := ⟨2, ![8192, 300]⟩
abbrev S1000000x1 : Shape := ⟨2, ![1000000, 1]⟩
abbrev S100x1 : Shape := ⟨2, ![100, 1]⟩
abbrev S1000000x64 : Shape := ⟨2, ![1000000, 64]⟩
abbrev S100x64 : Shape := ⟨2, ![100, 64]⟩
abbrev S1 : Shape := ⟨1, ![1]⟩
abbrev S8192x200 : Shape := ⟨2, ![8192, 200]⟩
abbrev S8192x100 : Shape := ⟨2, ![8192, 100]⟩
abbrev S_ : Shape := ⟨0, ![]⟩
abbrev S8192x200x1 : Shape := ⟨3, ![8192, 200, 1]⟩
abbrev S8192x200x64 : Shape := ⟨3, ![8192, 200, 64]⟩
abbrev S8192x200x2 : Shape := ⟨3, ![8192, 200, 2]⟩
abbrev S8192x1 : Shape := ⟨2, ![8192, 1]⟩
abbrev S128x200x64 : Shape := ⟨3, ![128, 200, 64]⟩
abbrev S128x200 : Shape := ⟨2, ![128, 200]⟩
abbrev S128x100 : Shape := ⟨2, ![128, 100]⟩
abbrev S128x1 : Shape := ⟨2, ![128, 1]⟩
abbrev S128 : Shape := ⟨1, ![128]⟩
abbrev S128x64 : Shape := ⟨2, ![128, 64]⟩
abbrev S1x1 : Shape := ⟨2, ![1, 1]⟩

abbrev nBuf : Space → Nat
  | .hbm => 33
  | .vmem => 11
  | .smem => 0
  | _ => 0

abbrev bufTy : (tb : Table) → Fin (tcTables nBuf tb) → BufTy
  | .hbm, ⟨0, _⟩ => ⟨S8192x300, .f32⟩
  | .hbm, ⟨1, _⟩ => ⟨S1000000x1, .f32⟩
  | .hbm, ⟨2, _⟩ => ⟨S100x1, .f32⟩
  | .hbm, ⟨3, _⟩ => ⟨S1000000x64, .f32⟩
  | .hbm, ⟨4, _⟩ => ⟨S100x64, .f32⟩
  | .hbm, ⟨5, _⟩ => ⟨S1, .f32⟩
  | .hbm, ⟨6, _⟩ => ⟨S8192x200, .f32⟩
  | .hbm, ⟨7, _⟩ => ⟨S8192x200, .i32⟩
  | .hbm, ⟨8, _⟩ => ⟨S8192x100, .f32⟩
  | .hbm, ⟨9, _⟩ => ⟨S_, .i32⟩
  | .hbm, ⟨10, _⟩ => ⟨S8192x200, .i32⟩
  | .hbm, ⟨11, _⟩ => ⟨S8192x200, .i1⟩
  | .hbm, ⟨12, _⟩ => ⟨S_, .i32⟩
  | .hbm, ⟨13, _⟩ => ⟨S8192x200, .i32⟩
  | .hbm, ⟨14, _⟩ => ⟨S8192x200, .i32⟩
  | .hbm, ⟨15, _⟩ => ⟨S8192x200, .i32⟩
  | .hbm, ⟨16, _⟩ => ⟨S8192x200x1, .i32⟩
  | .hbm, ⟨17, _⟩ => ⟨S8192x200x64, .f32⟩
  | .hbm, ⟨18, _⟩ => ⟨S_, .i32⟩
  | .hbm, ⟨19, _⟩ => ⟨S8192x200, .i32⟩
  | .hbm, ⟨20, _⟩ => ⟨S8192x200, .i1⟩
  | .hbm, ⟨21, _⟩ => ⟨S_, .i32⟩
  | .hbm, ⟨22, _⟩ => ⟨S8192x200, .i32⟩
  | .hbm, ⟨23, _⟩ => ⟨S8192x200, .i32⟩
  | .hbm, ⟨24, _⟩ => ⟨S8192x200, .i32⟩
  | .hbm, ⟨25, _⟩ => ⟨S_, .i32⟩
  | .hbm, ⟨26, _⟩ => ⟨S8192x200, .i32⟩
  | .hbm, ⟨27, _⟩ => ⟨S8192x200, .i32⟩
  | .hbm, ⟨28, _⟩ => ⟨S8192x200x1, .i32⟩
  | .hbm, ⟨29, _⟩ => ⟨S8192x200x1, .i32⟩
  | .hbm, ⟨30, _⟩ => ⟨S8192x200x2, .i32⟩
  | .hbm, ⟨31, _⟩ => ⟨S8192x200, .f32⟩
  | .hbm, ⟨32, _⟩ => ⟨S8192x1, .f32⟩
  | .local _ .vmem, ⟨0, _⟩ => ⟨S128x200x64, .f32⟩
  | .local _ .vmem, ⟨1, _⟩ => ⟨S128x200x64, .f32⟩
  | .local _ .vmem, ⟨2, _⟩ => ⟨S128x200, .f32⟩
  | .local _ .vmem, ⟨3, _⟩ => ⟨S128x200, .f32⟩
  | .local _ .vmem, ⟨4, _⟩ => ⟨S128x100, .f32⟩
  | .local _ .vmem, ⟨5, _⟩ => ⟨S128x100, .f32⟩
  | .local _ .vmem, ⟨6, _⟩ => ⟨S100x64, .f32⟩
  | .local _ .vmem, ⟨7, _⟩ => ⟨S100x1, .f32⟩
  | .local _ .vmem, ⟨8, _⟩ => ⟨S1, .f32⟩
  | .local _ .vmem, ⟨9, _⟩ => ⟨S128x1, .f32⟩
  | .local _ .vmem, ⟨10, _⟩ => ⟨S128x1, .f32⟩
  | _, _ => ⟨S8192x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S8192x300_S8192x200_0_0 : S8192x300.Slices ![0, 0] S8192x200
  slices_S8192x300_S8192x100_0_200 : S8192x300.Slices ![0, 200] S8192x100
  bcast_S_S8192x200 : S_.BroadcastsInDim S8192x200 (![] : Fin 0 → Fin S8192x200.rank)
  bcast_S8192x200_S8192x200x1_0_1 : S8192x200.BroadcastsInDim S8192x200x1 (![0, 1] : Fin 2 → Fin S8192x200x1.rank)
  concatenates_S8192x200x1_S8192x200x1_S8192x200x2_d2 : Shape.Concatenates [S8192x200x1, S8192x200x1] S8192x200x2 2
  inb_S128x200x64_S128x200x64_0_0_0 : ∀ a, (![0, 0, 0] : Fin 3 → Nat) a + S128x200x64.size a ≤ S128x200x64.size a
  h_S128x200x64 : 0 < S128x200x64.numel
  shapeCasts_S128x200x64_S128x200x64 : S128x200x64.ShapeCasts S128x200x64
  inb_S128x200_S128x200_0_0 : ∀ a, (![0, 0] : Fin 2 → Nat) a + S128x200.size a ≤ S128x200.size a
  h_S128x200 : 0 < S128x200.numel
  shapeCasts_S128x200_S128x200 : S128x200.ShapeCasts S128x200
  inb_S128x100_S128x100_0_0 : ∀ a, (![0, 0] : Fin 2 → Nat) a + S128x100.size a ≤ S128x100.size a
  h_S128x100 : 0 < S128x100.numel
  shapeCasts_S128x100_S128x100 : S128x100.ShapeCasts S128x100
  inb_S100x64_S100x64_0_0 : ∀ a, (![0, 0] : Fin 2 → Nat) a + S100x64.size a ≤ S100x64.size a
  h_S100x64 : 0 < S100x64.numel
  inb_S100x1_S100x1_0_0 : ∀ a, (![0, 0] : Fin 2 → Nat) a + S100x1.size a ≤ S100x1.size a
  h_S100x1 : 0 < S100x1.numel
  reduces_S128x200_S128 : S128x200.Reduces [1] S128
  shapeCasts_S128_S128x1 : S128.ShapeCasts S128x1
  reduces_S128x200x64_S128x64 : S128x200x64.Reduces [1] S128x64
  reduces_S128x64_S128 : S128x64.Reduces [1] S128
  inb_S1_S1_0 : ∀ a, (![0] : Fin 1 → Nat) a + S1.size a ≤ S1.size a
  h_S1 : 0 < S1.numel
  shapeCasts_S1_S1x1 : S1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  gather_S1000000x64_S8192x200x1_S8192x200x64_2_0_n_n_0_2_164_wf : GatherDims.WF S1000000x64 S8192x200x1 S8192x200x64 [2] [0] [] [0] [] 2 ![1, 64]
  gather_S1000000x1_S8192x200x2_S8192x200_n_01_n_n_01_2_11_wf : GatherDims.WF S1000000x1 S8192x200x2 S8192x200 [] [0, 1] [] [0, 1] [] 2 ![1, 1]
  dot_S128x100_S100x1_S128x1_1_0_0_1_n_n_wf : DotDims.WF S128x100 S100x1 S128x1 [1] [0] [0] [1] [] []
  dot_S128x100_S100x64_S128x64_1_0_0_1_n_n_wf : DotDims.WF S128x100 S100x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x200x64.size a ≤ S8192x200x64.size a
  hwx0_0 : ∀ i : grid0.Coords, EltTy.bits .f32 = 32 ∨ (Rect.block (s := S8192x200x64) S128x200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x200.size a ≤ S8192x200.size a
  hwx0_1 : ∀ i : grid0.Coords, EltTy.bits .f32 = 32 ∨ (Rect.block (s := S8192x200) S128x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x100.size a ≤ S8192x100.size a
  hwx0_2 : ∀ i : grid0.Coords, EltTy.bits .f32 = 32 ∨ (Rect.block (s := S8192x100) S128x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x64.size a ≤ S100x64.size a
  hwx0_3 : ∀ i : grid0.Coords, EltTy.bits .f32 = 32 ∨ (Rect.block (s := S100x64) S100x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x1.size a ≤ S100x1.size a
  hwx0_4 : ∀ i : grid0.Coords, EltTy.bits .f32 = 32 ∨ (Rect.block (s := S100x1) S100x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S8192x1.size a
  hwx0_6 : ∀ i : grid0.Coords, EltTy.bits .f32 = 32 ∨ (Rect.block (s := S8192x1) S128x1.size (cc0_transform_6 i) (hinb0_6 i)).WholeWords (EltTy.packing .f32)

variable [Facts₀]

def gather_S1000000x64_S8192x200x1_S8192x200x64_2_0_n_n_0_2_164 : GatherDims S1000000x64 S8192x200x1 S8192x200x64 where
  offsetDims := [2]
  collapsedSliceDims := [0]
  operandBatchingDims := []
  startIndicesBatchingDims := []
  startIndexMap := [0]
  indexVectorDim := 2
  sliceSizes := ![1, 64]
  wf := gather_S1000000x64_S8192x200x1_S8192x200x64_2_0_n_n_0_2_164_wf
def gather_S1000000x1_S8192x200x2_S8192x200_n_01_n_n_01_2_11 : GatherDims S1000000x1 S8192x200x2 S8192x200 where
  offsetDims := []
  collapsedSliceDims := [0, 1]
  operandBatchingDims := []
  startIndicesBatchingDims := []
  startIndexMap := [0, 1]
  indexVectorDim := 2
  sliceSizes := ![1, 1]
  wf := gather_S1000000x1_S8192x200x2_S8192x200_n_01_n_n_01_2_11_wf
def dot_S128x100_S100x1_S128x1_1_0_0_1_n_n : DotDims S128x100 S100x1 S128x1 where
  lhsContracting := [1]
  rhsContracting := [0]
  lhsNonContracting := [0]
  rhsNonContracting := [1]
  lhsBatch := []
  rhsBatch := []
  wf := dot_S128x100_S100x1_S128x1_1_0_0_1_n_n_wf
def dot_S128x100_S100x64_S128x64_1_0_0_1_n_n : DotDims S128x100 S100x64 S128x64 where
  lhsContracting := [1]
  rhsContracting := [0]
  lhsNonContracting := [0]
  rhsNonContracting := [1]
  lhsBatch := []
  rhsBatch := []
  wf := dot_S128x100_S100x64_S128x64_1_0_0_1_n_n_wf

abbrev win0_0 : Pipeline.Window sig grid0 :=
  Pipeline.Window.ofSpec (Memref.whole main_v9) S128x200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S100x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S100x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S128x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x300 : Shape := ⟨2, ![8192, 300]⟩
abbrev S1000000x1 : Shape := ⟨2, ![1000000, 1]⟩
abbrev S100x1 : Shape := ⟨2, ![100, 1]⟩
abbrev S1000000x64 : Shape := ⟨2, ![1000000, 64]⟩
abbrev S100x64 : Shape := ⟨2, ![100, 64]⟩
abbrev S1 : Shape := ⟨1, ![1]⟩
abbrev S8192x200 : Shape := ⟨2, ![8192, 200]⟩
abbrev S8192x100 : Shape := ⟨2, ![8192, 100]⟩
abbrev S_ : Shape := ⟨0, ![]⟩
abbrev S8192x200x1 : Shape := ⟨3, ![8192, 200, 1]⟩
abbrev S8192x200x2 : Shape := ⟨3, ![8192, 200, 2]⟩
abbrev S8192 : Shape := ⟨1, ![8192]⟩
abbrev S8192x1 : Shape := ⟨2, ![8192, 1]⟩
abbrev S8192x200x64 : Shape := ⟨3, ![8192, 200, 64]⟩
abbrev S8192x100x1 : Shape := ⟨3, ![8192, 100, 1]⟩
abbrev S1x100x64 : Shape := ⟨3, ![1, 100, 64]⟩
abbrev S8192x100x64 : Shape := ⟨3, ![8192, 100, 64]⟩
abbrev S8192x64 : Shape := ⟨2, ![8192, 64]⟩

abbrev nBuf : Space → Nat
  | .hbm => 67
  | .vmem => 0
  | .smem => 0
  | _ => 0

abbrev bufTy : (tb : Table) → Fin (tcTables nBuf tb) → BufTy
  | .hbm, ⟨0, _⟩ => ⟨S8192x300, .f32⟩
  | .hbm, ⟨1, _⟩ => ⟨S1000000x1, .f32⟩
  | .hbm, ⟨2, _⟩ => ⟨S100x1, .f32⟩
  | .hbm, ⟨3, _⟩ => ⟨S1000000x64, .f32⟩
  | .hbm, ⟨4, _⟩ => ⟨S100x64, .f32⟩
  | .hbm, ⟨5, _⟩ => ⟨S1, .f32⟩
  | .hbm, ⟨6, _⟩ => ⟨S8192x200, .f32⟩
  | .hbm, ⟨7, _⟩ => ⟨S8192x200, .i32⟩
  | .hbm, ⟨8, _⟩ => ⟨S8192x100, .f32⟩
  | .hbm, ⟨9, _⟩ => ⟨S_, .i32⟩
  | .hbm, ⟨10, _⟩ => ⟨S8192x200, .i32⟩
  | .hbm, ⟨11, _⟩ => ⟨S8192x200, .i1⟩
  | .hbm, ⟨12, _⟩ => ⟨S_, .i32⟩
  | .hbm, ⟨13, _⟩ => ⟨S8192x200, .i32⟩
  | .hbm, ⟨14, _⟩ => ⟨S8192x200, .i32⟩
  | .hbm, ⟨15, _⟩ => ⟨S8192x200, .i32⟩
  | .hbm, ⟨16, _⟩ => ⟨S_, .i32⟩
  | .hbm, ⟨17, _⟩ => ⟨S8192x200, .i32⟩
  | .hbm, ⟨18, _⟩ => ⟨S8192x200, .i32⟩
  | .hbm, ⟨19, _⟩ => ⟨S8192x200x1, .i32⟩
  | .hbm, ⟨20, _⟩ => ⟨S8192x200x1, .i32⟩
  | .hbm, ⟨21, _⟩ => ⟨S8192x200x2, .i32⟩
  | .hbm, ⟨22, _⟩ => ⟨S8192x200, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S_, .i32⟩
  | .hbm, ⟨30, _⟩ => ⟨S8192x200, .i32⟩
  | .hbm, ⟨31, _⟩ => ⟨S8192x200, .i1⟩
  | .hbm, ⟨32, _⟩ => ⟨S_, .i32⟩
  | .hbm, ⟨33, _⟩ => ⟨S8192x200, .i32⟩
  | .hbm, ⟨34, _⟩ => ⟨S8192x200, .i32⟩
  | .hbm, ⟨35, _⟩ => ⟨S8192x200, .i32⟩
  | .hbm, ⟨36, _⟩ => ⟨S8192x200x1, .i32⟩
  | .hbm, ⟨37, _⟩ => ⟨S8192x200x64, .f32⟩
  | .hbm, ⟨38, _⟩ => ⟨S8192x100x1, .f32⟩
  | .hbm, ⟨39, _⟩ => ⟨S1x100x64, .f32⟩
  | .hbm, ⟨40, _⟩ => ⟨S8192x100x64, .f32⟩
  | .hbm, ⟨41, _⟩ => ⟨S8192x100x64, .f32⟩
  | .hbm, ⟨42, _⟩ => ⟨S8192x100x64, .f32⟩
  | .hbm, ⟨43, _⟩ => ⟨S_, .f32⟩
  | .hbm, ⟨44, _⟩ => ⟨S8192x64, .f32⟩
  | .hbm, ⟨45, _⟩ => ⟨S_, .f32⟩
  | .hbm, ⟨46, _⟩ => ⟨S8192x64, .f32⟩
  | .hbm, ⟨47, _⟩ => ⟨S8192x64, .f32⟩
  | .hbm, ⟨48, _⟩ => ⟨S8192x200x64, .f32⟩
  | .hbm, ⟨49, _⟩ => ⟨S_, .f32⟩
  | .hbm, ⟨50, _⟩ => ⟨S8192x64, .f32⟩
  | .hbm, ⟨51, _⟩ => ⟨S8192x100x64, .f32⟩
  | .hbm, ⟨52, _⟩ => ⟨S_, .f32⟩
  | .hbm, ⟨53, _⟩ => ⟨S8192x64, .f32⟩
  | .hbm, ⟨54, _⟩ => ⟨S8192x64, .f32⟩
  | .hbm, ⟨55, _⟩ => ⟨S8192x64, .f32⟩
  | .hbm, ⟨56, _⟩ => ⟨S8192x64, .f32⟩
  | .hbm, ⟨57, _⟩ => ⟨S_, .f32⟩
  | .hbm, ⟨58, _⟩ => ⟨S8192, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S8192x1, .f32⟩
  | _, _ => ⟨S8192x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S8192x300_S8192x200_0_0 : S8192x300.Slices ![0, 0] S8192x200
  slices_S8192x300_S8192x100_0_200 : S8192x300.Slices ![0, 200] S8192x100
  bcast_S_S8192x200 : S_.BroadcastsInDim S8192x200 (![] : Fin 0 → Fin S8192x200.rank)
  bcast_S8192x200_S8192x200x1_0_1 : S8192x200.BroadcastsInDim S8192x200x1 (![0, 1] : Fin 2 → Fin S8192x200x1.rank)
  concatenates_S8192x200x1_S8192x200x1_S8192x200x2_d2 : Shape.Concatenates [S8192x200x1, S8192x200x1] S8192x200x2 2
  reducesTo_S8192x200_S8192_d1 : S8192x200.ReducesTo [1] S8192
  h_S_ : 0 < S_.numel
  reducesTo_S8192x1_S8192_d1 : S8192x1.ReducesTo [1] S8192
  bcast_S8192x100_S8192x100x1_0_1 : S8192x100.BroadcastsInDim S8192x100x1 (![0, 1] : Fin 2 → Fin S8192x100x1.rank)
  bcast_S100x64_S1x100x64_1_2 : S100x64.BroadcastsInDim S1x100x64 (![1, 2] : Fin 2 → Fin S1x100x64.rank)
  bcast_S8192x100x1_S8192x100x64_0_1_2 : S8192x100x1.BroadcastsInDim S8192x100x64 (![0, 1, 2] : Fin 3 → Fin S8192x100x64.rank)
  bcast_S1x100x64_S8192x100x64_0_1_2 : S1x100x64.BroadcastsInDim S8192x100x64 (![0, 1, 2] : Fin 3 → Fin S8192x100x64.rank)
  reducesTo_S8192x200x64_S8192x64_d1 : S8192x200x64.ReducesTo [1] S8192x64
  reducesTo_S8192x100x64_S8192x64_d1 : S8192x100x64.ReducesTo [1] S8192x64
  reducesTo_S8192x64_S8192_d1 : S8192x64.ReducesTo [1] S8192
  bcast_S_S8192 : S_.BroadcastsInDim S8192 (![] : Fin 0 → Fin S8192.rank)
  shapeCasts_S1_S_ : S1.ShapeCasts S_
  bcast_S8192_S8192x1_0 : S8192.BroadcastsInDim S8192x1 (![0] : Fin 1 → Fin S8192x1.rank)
  gather_S1000000x1_S8192x200x2_S8192x200_n_01_n_n_01_2_11_wf : GatherDims.WF S1000000x1 S8192x200x2 S8192x200 [] [0, 1] [] [0, 1] [] 2 ![1, 1]
  dot_S8192x100_S100x1_S8192x1_1_0_0_1_n_n_wf : DotDims.WF S8192x100 S100x1 S8192x1 [1] [0] [0] [1] [] []
  gather_S1000000x64_S8192x200x1_S8192x200x64_2_0_n_n_0_2_164_wf : GatherDims.WF S1000000x64 S8192x200x1 S8192x200x64 [2] [0] [] [0] [] 2 ![1, 64]

variable [Facts₀]

def gather_S1000000x1_S8192x200x2_S8192x200_n_01_n_n_01_2_11 : GatherDims S1000000x1 S8192x200x2 S8192x200 where
  offsetDims := []
  collapsedSliceDims := [0, 1]
  operandBatchingDims := []
  startIndicesBatchingDims := []
  startIndexMap := [0, 1]
  indexVectorDim := 2
  sliceSizes := ![1, 1]
  wf := gather_S1000000x1_S8192x200x2_S8192x200_n_01_n_n_01_2_11_wf
def dot_S8192x100_S100x1_S8192x1_1_0_0_1_n_n : DotDims S8192x100 S100x1 S8192x1 where
  lhsContracting := [1]
  rhsContracting := [0]
  lhsNonContracting := [0]
  rhsNonContracting := [1]
  lhsBatch := []
  rhsBatch := []
  wf := dot_S8192x100_S100x1_S8192x1_1_0_0_1_n_n_wf
def gather_S1000000x64_S8192x200x1_S8192x200x64_2_0_n_n_0_2_164 : GatherDims S1000000x64 S8192x200x1 S8192x200x64 where
  offsetDims := [2]
  collapsedSliceDims := [0]
  operandBatchingDims := []
  startIndicesBatchingDims := []
  startIndexMap := [0]
  indexVectorDim := 2
  sliceSizes := ![1, 64]
  wf := gather_S1000000x64_S8192x200x1_S8192x200x64_2_0_n_n_0_2_164_wf

class Facts : Prop extends Facts₀ where

variable [Facts]
-- ==== Proof.FmSpec.lean ====
/-
  The factorization-machine layer as ONE function of its arrays, on the extended reals.

  For one example of the batch, with categorical weights `W f` and embeddings `S f e` (one per field `f`),
  dense features `x n` with their embedding table `v n e` and linear weights `w n`, a scale `half` and a bias:

    first order   =  ∑ f, W f  +  ∑ n, x n * w n
    field sum     A e  =  ∑ f, S f e  +  ∑ n, x n * v n e
    field squares B e  =  ∑ f, S f e * S f e  +  ∑ n, (x n * x n) * (v n e * v n e)
    result        =  first order  +  half * ∑ e, (A e * A e - B e)  +  bias

  (the pairwise interactions of all fields as "square of the sum minus sum of the squares"). The squares of the dense
  part are written with the feature's square and the table's square apart; `sq_mul` is the law that identifies this with
  the square of the product, which holds on the extended reals because their multiplication is commutative and
  associative: no finiteness is needed. `layer` reads the same function off arrays of the layer's extents, row by row.
-/
import Idealize.ShloMosaic.PureOps.Ideal.Laws
import Idealize.ShloMosaic.Lib.ValueIdx

noncomputable section

namespace Cert.FM

open Idealize.ShloMosaic Idealize.ShloMosaic.ValueIdx

/-- One example's output: first-order terms, plus `half` times the summed pairwise interactions, plus the bias. -/
def row {Fd Nn E : ℕ} (half bias : EReal) (W : Fin Fd → EReal) (S : Fin Fd → Fin E → EReal)
    (x : Fin Nn → EReal) (v : Fin Nn → Fin E → EReal) (w : Fin Nn → EReal) : EReal :=
  ((∑ f, W f) + ∑ n, x n * w n)
    + half * (∑ e, (((∑ f, S f e) + ∑ n, x n * v n e) * ((∑ f, S f e) + ∑ n, x n * v n e)
        - ((∑ f, S f e * S f e) + ∑ n, (x n * x n) * (v n e * v n e))))
    + bias

/-- The row function depends on its arrays only through their entries. -/
theorem row_congr {Fd Nn E : ℕ} (half : EReal) {b b' : EReal} {W W' : Fin Fd → EReal} {S S' : Fin Fd → Fin E → EReal}
    {x x' : Fin Nn → EReal} {v v' : Fin Nn → Fin E → EReal} {w w' : Fin Nn → EReal}
    (hb : b = b') (hW : ∀ f, W f = W' f) (hS : ∀ f e, S f e = S' f e) (hx : ∀ n, x n = x' n)
    (hv : ∀ n e, v n e = v' n e) (hw : ∀ n, w n = w' n) :
    row half b W S x v w = row half b' W' S' x' v' w' := by
  obtain rfl := hb
  obtain rfl : W = W' := funext hW
  obtain rfl : S = S' := funext fun f => funext fun e => hS f e
  obtain rfl : x = x' := funext hx
  obtain rfl : v = v' := funext fun n => funext fun e => hv n e
  obtain rfl : w = w' := funext hw
  rfl

/-- The square of a product is the product of the squares, on the extended reals. -/
theorem sq_mul (a b : EReal) : (a * b) * (a * b) = (a * a) * (b * b) := mul_mul_mul_comm a b a b

/-- Row `r` of the layer over the whole batch: the gathered weights `W` [8192, 200] and embeddings `S` [8192, 200, 64],
    the dense features `X` [8192, 100], their table `v` [100, 64] and weights `w` [100, 1], the bias `b` [1]. -/
def layerRow (half : EReal) (W : (⟨2, ![8192, 200]⟩ : Shape).Idx → EReal) (S : (⟨3, ![8192, 200, 64]⟩ : Shape).Idx → EReal)
    (X : (⟨2, ![8192, 100]⟩ : Shape).Idx → EReal) (v : (⟨2, ![100, 64]⟩ : Shape).Idx → EReal)
    (w : (⟨2, ![100, 1]⟩ : Shape).Idx → EReal) (b : (⟨1, ![1]⟩ : Shape).Idx → EReal) (r : Fin 8192) : EReal :=
  row half (b (ix1 (0 : Fin 1))) (fun f : Fin 200 => W (ix2 r f)) (fun (f : Fin 200) (e : Fin 64) => S (ix3 r f e))
    (fun n : Fin 100 => X (ix2 r n)) (fun (n : Fin 100) (e : Fin 64) => v (ix2 n e)) (fun n : Fin 100 => w (ix2 n (0 : Fin 1)))

/-- The layer's output array [8192, 1]: entry `(r, ·)` is row `r`'s output. -/
def layer (half : EReal) (W : (⟨2, ![8192, 200]⟩ : Shape).Idx → EReal) (S : (⟨3, ![8192, 200, 64]⟩ : Shape).Idx → EReal)
    (X : (⟨2, ![8192, 100]⟩ : Shape).Idx → EReal) (v : (⟨2, ![100, 64]⟩ : Shape).Idx → EReal)
    (w : (⟨2, ![100, 1]⟩ : Shape).Idx → EReal) (b : (⟨1, ![1]⟩ : Shape).Idx → EReal) :
    (⟨2, ![8192, 1]⟩ : Shape).Idx → EReal :=
  fun i => layerRow half W S X v w b ⟨(i 0).val, (i 0).isLt⟩

theorem layer_apply (half : EReal) (W : (⟨2, ![8192, 200]⟩ : Shape).Idx → EReal) (S : (⟨3, ![8192, 200, 64]⟩ : Shape).Idx → EReal)
    (X : (⟨2, ![8192, 100]⟩ : Shape).Idx → EReal) (v : (⟨2, ![100, 64]⟩ : Shape).Idx → EReal)
    (w : (⟨2, ![100, 1]⟩ : Shape).Idx → EReal) (b : (⟨1, ![1]⟩ : Shape).Idx → EReal) (r : Fin 8192) (u : Fin 1) :
    layer half W S X v w b (ix2 r u) = layerRow half W S X v w b r := rfl

end Cert.FM

end
-- ==== Proof.LibAxisSums.lean ====
/-
  Sums along axes of small-rank arrays, read at coordinates, at the ideal values (floats are extended reals,
  every sum exact). For any extents and any float type:

  * a vector sum over the MIDDLE axis of a rank-3 array [a, b, c] into [a, c], at (p, w), is the sum over
    n < b of the array at (p, n, w) (`multiReduction_add_mid_apply`);
  * a vector sum over the LAST axis of a rank-2 array [a, b] into [a], at p, is the sum over k < b of the array
    at (p, k) (`multiReduction_add_last_apply`);
  * a host sum over the TWO TRAILING axes of a rank-3 array [a, b, c] into [a], at p, is the initial value plus
    the double sum over n < b and k < c of the array at (p, n, k) (`hostReduceAdd_trailing_two_apply`): the
    indices that drop to p are exactly the (p, n, k), in bijection with the pairs (n, k).
-/
import Idealize.ShloMosaic.PureOps.Ideal.Laws
import Idealize.ShloMosaic.Lib.ValueIdx

noncomputable section

namespace Cert.Lib.AxisSums

open Idealize.ShloMosaic Idealize.ShloMosaic.ValueIdx

variable {φ : FTy}

/-- A vector sum over the middle axis of [a, b, c], read at (p, w): the sum over the middle coordinate. -/
theorem multiReduction_add_mid_apply {a b c : Nat} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (p : Fin a) (w : Fin c) :
    multiReduction .add [1] ⟨2, ![a, c]⟩ src acc h hφ hacc (ix2 p w) = ∑ n : Fin b, src (ix3 p n w) := by
  rw [Ideal.multiReduction_add_single]
  refine Finset.sum_congr rfl fun n _ => ?_
  exact congrArg src (funext fun d => Fin.ext (by match d with | ⟨0, _⟩ => rfl | ⟨1, _⟩ => rfl | ⟨2, _⟩ => rfl))

/-- A vector sum over the last axis of [a, b], read at p: the sum over the last coordinate. -/
theorem multiReduction_add_last_apply {a b : Nat} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => ?_
  exact congrArg src (funext fun d => Fin.ext (by match d with | ⟨0, _⟩ => rfl | ⟨1, _⟩ => rfl))

/-- An index of [a, b, c] drops, over its two trailing axes, to its leading coordinate. -/
theorem drop_trailing_two {a b c : Nat} (h : (⟨3, ![a, b, c]⟩ : Shape).ReducesTo [1, 2] ⟨1, ![a]⟩)
    (i : (⟨3, ![a, b, c]⟩ : Shape).Idx) : h.drop i = ix1 (i 0) := by
  funext d
  match d with
  | ⟨0, _⟩ => exact Fin.ext (h.drop_apply_val_of_eq i ⟨0, Nat.zero_lt_one⟩ 0 (Nat.zero_lt_one) rfl)

/-- A host sum over the two trailing axes of [a, b, c], read at p: the initial value plus the double sum over
    the two trailing coordinates. -/
theorem hostReduceAdd_trailing_two_apply {a b c : Nat} (h : (⟨3, ![a, b, c]⟩ : Shape).ReducesTo [1, 2] ⟨1, ![a]⟩)
    (x : (⟨3, ![a, b, c]⟩ : Shape).Idx → EReal) (init : EReal) (p : Fin a) :
    Ideal.hostReduceAdd h x init (ix1 p) = init + ∑ n : Fin b, ∑ k : Fin c, x (ix3 p n k) := by
  unfold Ideal.hostReduceAdd
  refine congrArg (init + ·) ?_
  rw [← Finset.sum_product' (Finset.univ : Finset (Fin b)) (Finset.univ : Finset (Fin c)) fun n k => x (ix3 p n k)]
  refine Finset.sum_nbij' (fun i => (i 1, i 2)) (fun q => ix3 p q.1 q.2) ?_ ?_ ?_ ?_ ?_
  · intro i _; exact Finset.mem_product.2 ⟨Finset.mem_univ _, Finset.mem_univ _⟩
  · intro q _
    refine Finset.mem_filter.2 ⟨Finset.mem_univ _, ?_⟩
    rw [drop_trailing_two]
    rfl
  · intro i hi
    have hj := (Finset.mem_filter.1 hi).2
    rw [drop_trailing_two] at hj
    have h0 : i 0 = p := congrFun hj 0
    funext d
    match d with
    | ⟨0, _⟩ => exact h0.symm
    | ⟨1, _⟩ => rfl
    | ⟨2, _⟩ => rfl
  · intro q _; rfl
  · intro i hi
    have hj := (Finset.mem_filter.1 hi).2
    rw [drop_trailing_two] at hj
    have h0 : i 0 = p := congrFun hj 0
    refine congrArg x ?_
    funext d
    match d with
    | ⟨0, _⟩ => exact h0
    | ⟨1, _⟩ => rfl
    | ⟨2, _⟩ => rfl

end Cert.Lib.AxisSums

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.FmKernelBlock.lean ====
/-
  What the kernel body computes for one row of its block.

  The body holds a block of 128 examples: gathered embeddings `x0` [128, 200, 64], gathered weights `x1` [128, 200],
  dense features `x2` [128, 100], and whole the dense table `x3` [100, 64], the dense weights `x4` [100, 1] and the
  bias `x5` [1]. Its one stored value, read at row `p`, is the layer's row function (`Cert.FM.row`) of row `p` of the
  three blocks: the sums over the fields are lane reductions (over the middle axis for the embeddings, over the last
  axis for the weights, the latter kept as a column), the dense sums are three matrix products into zero — of the
  features with the weights, of the features with the table, and of the squared features with the squared table —
  and the bias is its one entry laid over the column.
-/
import proofs.«120599_j45595372814827_2_alg».proof.Proof.Gen.KernelIdeal.Skeleton
import proofs.«120599_j45595372814827_2_alg».proof.Proof.FmSpec
import proofs.«120599_j45595372814827_2_alg».proof.Proof.LibAxisSums
import proofs.«120599_j45595372814827_2_alg».proof.Proof.LibColumnLayout
import proofs.«120599_j45595372814827_2_alg».proof.Proof.LibPlainMatmul
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

/-- A sum over the last axis of a [128, 200] block, kept as a column, at row `p`. -/
theorem fieldWeights (src : FVec Ideal S128x200 .f32) (p : Fin 128) (u : Fin 1) :
    shapeCast S128x1 (multiReduction .add [1] S128 src 0x00000000#32 reduces_S128x200_S128 (.inl rfl) rfl) shapeCasts_S128_S128x1 (ix2 p u)
      = ∑ f : Fin 200, src (ix2 p f) :=
  (ColumnLayout.shapeCast_a_a1_apply _ shapeCasts_S128_S128x1 p u).trans
    (Cert.Lib.AxisSums.multiReduction_add_last_apply src _ reduces_S128x200_S128 _ _ p)

/-- A sum over the last axis of a [128, 64] block, kept as a column, at row `p`. -/
theorem embedSum (src : FVec Ideal S128x64 .f32) (p : Fin 128) (u : Fin 1) :
    shapeCast S128x1 (multiReduction .add [1] S128 src 0x00000000#32 reduces_S128x64_S128 (.inl rfl) rfl) shapeCasts_S128_S128x1 (ix2 p u)
      = ∑ e : Fin 64, src (ix2 p e) :=
  (ColumnLayout.shapeCast_a_a1_apply _ shapeCasts_S128_S128x1 p u).trans
    (Cert.Lib.AxisSums.multiReduction_add_last_apply src _ reduces_S128x64_S128 _ _ p)

/-- A sum over the fields (the middle axis) of a [128, 200, 64] block, at row `p` and embedding coordinate `e`. -/
theorem fieldSum (src : FVec Ideal S128x200x64 .f32) (p : Fin 128) (e : Fin 64) :
    multiReduction .add [1] S128x64 src 0x00000000#32 reduces_S128x200x64_S128x64 (.inl rfl) rfl (ix2 p e)
      = ∑ f : Fin 200, src (ix3 p f e) :=
  Cert.Lib.AxisSums.multiReduction_add_mid_apply src _ reduces_S128x200x64_S128x64 _ _ p e

/-- The dense features against a one-column matrix, into zero. -/
theorem denseWeights (l : FVec Ideal S128x100 .f32) (r : FVec Ideal S100x1 .f32) (p : Fin 128) (u : Fin 1) :
    matmul dot_S128x100_S100x1_S128x1_1_0_0_1_n_n none l r (constant S128x1 .f32 0x00000000#32) (ix2 p u)
      = ∑ n : Fin 100, l (ix2 p n) * r (ix2 n u) :=
  Cert.Lib.PlainMatmul.matmul_zero_apply dot_S128x100_S100x1_S128x1_1_0_0_1_n_n rfl rfl rfl rfl rfl rfl none l r p u

/-- The dense features against a [100, 64] matrix, into zero. -/
theorem denseTable (l : FVec Ideal S128x100 .f32) (r : FVec Ideal S100x64 .f32) (p : Fin 128) (e : Fin 64) :
    matmul dot_S128x100_S100x64_S128x64_1_0_0_1_n_n none l r (constant S128x64 .f32 0x00000000#32) (ix2 p e)
      = ∑ n : Fin 100, l (ix2 p n) * r (ix2 n e) :=
  Cert.Lib.PlainMatmul.matmul_zero_apply dot_S128x100_S100x64_S128x64_1_0_0_1_n_n rfl rfl rfl rfl rfl rfl none l r p e

/-- The bias vector [1] laid as [1, 1] and repeated down the column [128, 1] reads its one entry. -/
theorem biasColumn (x : Vec Ideal S1 .f32) (p : Fin 128) (u : Fin 1) :
    broadcastTo S128x1 (shapeCast S1x1 x shapeCasts_S1_S1x1) broadcasts_S1x1_S128x1 (ix2 p u) = x (ix1 (0 : Fin 1)) := by
  obtain rfl : u = 0 := Subsingleton.elim _ _
  exact (broadcastTo_1b_ab_apply _ broadcasts_S1x1_S128x1 p (0 : Fin 1)).trans
    (shapeCast_a_1a_apply x shapeCasts_S1_S1x1 (0 : Fin 1) (0 : Fin 1))

/-- THE BODY'S STORED VALUE AT ROW `p` is the layer's row function of row `p` of the blocks. -/
theorem payload_apply (x0 : Vec Ideal S128x200x64 .f32) (x1 : Vec Ideal S128x200 .f32) (x2 : Vec Ideal S128x100 .f32)
    (x3 : Vec Ideal S100x64 .f32) (x4 : Vec Ideal S100x1 .f32) (x5 : Vec Ideal S1 .f32) (p : Fin 128) (u : Fin 1) :
    k0_pay1 (F := Ideal) x0 x1 x2 x3 x4 x5 (ix2 p u)
      = Cert.FM.row (Ideal.ofBits .f32 0x3F000000#32) (x5 (ix1 (0 : Fin 1)))
          (fun f : Fin 200 => x1 (ix2 p f)) (fun (f : Fin 200) (e : Fin 64) => x0 (ix3 p f e))
          (fun n : Fin 100 => x2 (ix2 p n)) (fun (n : Fin 100) (e : Fin 64) => x3 (ix2 n e))
          (fun n : Fin 100 => x4 (ix2 n (0 : Fin 1))) := by
  obtain rfl : u = 0 := Subsingleton.elim _ _
  unfold k0_pay1 Cert.FM.row
  simp only [shapeCast_self, addf_apply, mulf_apply, broadcast_apply]
  rw [fieldWeights, denseWeights, embedSum, biasColumn]
  refine congrArg (· + _) (congrArg (_ + ·) (congrArg (_ * ·) (Finset.sum_congr rfl fun e _ => ?_)))
  simp only [subf_apply, mulf_apply, addf_apply]
  rw [fieldSum, fieldSum, denseTable, denseTable]
  rfl

end Cert.KernelIdeal.Block

end
-- ==== Proof.FmKernelArray.lean ====
/-
  From the kernel's blocks to its whole result array.

  The grid has 64 points; point `t` works on rows `128 t … 128 t + 127`: its blocks of the gathered embeddings, the
  gathered weights and the dense features are those rows of their arrays, the dense table, the dense weights and the
  bias are whole at every point, and the block it writes back is rows `128 t … 128 t + 127` of the result. So what
  point `t` writes back is block `t` of the layer function of the arrays as the region finds them (`flushed_eq`:
  row `p` of the block is row `128 t + p` of the batch, by `Cert.KernelIdeal.Block.payload_apply`), row `r` of the
  result lies in the block of point `r / 128`, and the result array ends holding the layer function (`final`, `run`).
-/
import proofs.«120599_j45595372814827_2_alg».proof.Proof.Gen.KernelIdeal.Value
import proofs.«120599_j45595372814827_2_alg».proof.Proof.FmKernelBlock
import Idealize.ShloMosaic.Lib.Pipeline.Value
import Idealize.ShloMosaic.Lib.Tactic

noncomputable section

namespace Cert.KernelIdeal.Rows

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The layer function of the arrays as the region finds them: the two gathers and the dense slice the host
    operations before the region leave, and the three arguments the kernel stages whole. -/
abbrev entryLayer (c : Dev nD) : S8192x1.Idx → EReal :=
  Cert.FM.layer (Ideal.ofBits .f32 0x3F000000#32) (V m c main_v20) (V m c main_v9) (V m c main_v2)
    (V m c main_arg4) (V m c main_arg2) (V m c main_arg5)

/-- The printed index maps, decided over the 64 points: the three batch-blocked inputs and the output are at block
    `t` along the batch and block 0 elsewhere; the dense table, the dense weights and the bias are always at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row `p` of point `t`'s block of the gathered embeddings is row `128 t + p` of the array. -/
theorem embeddings_block (c : Dev nD) (t : Fin cfg0.N) (p : Fin 128) (f : Fin 200) (e : Fin 64) (r : Fin 8192)
    (hr : r.val = t.val * 128 + p.val) :
    (iblk m c 0 t : Vec Ideal S128x200x64 .f32) (ix3 p f e) = (V m c main_v9 : S8192x200x64.Idx → EReal) (ix3 r f e) := by
  obtain ⟨a0, a1, a2, -⟩ := idx_facts t
  show V m c main_v9 (((cfg0.win 0).blk t).view.emb (ix3 p f e)) = V m c main_v9 (ix3 r f e)
  refine congrArg _ ?_
  funext a; apply Fin.ext
  match a with
  | ⟨0, _⟩ => show win0_0.index t (0 : Fin 3) * 128 + 1 * p.val = r.val; omega
  | ⟨1, _⟩ => show win0_0.index t (1 : Fin 3) * 200 + 1 * f.val = f.val; omega
  | ⟨2, _⟩ => show win0_0.index t (2 : Fin 3) * 64 + 1 * e.val = e.val; omega

/-- Row `p` of point `t`'s block of the gathered weights is row `128 t + p` of the array. -/
theorem weights_block (c : Dev nD) (t : Fin cfg0.N) (p : Fin 128) (f : Fin 200) (r : Fin 8192)
    (hr : r.val = t.val * 128 + p.val) :
    (iblk m c 1 t : Vec Ideal S128x200 .f32) (ix2 p f) = (V m c main_v20 : S8192x200.Idx → EReal) (ix2 r f) := by
  obtain ⟨-, -, -, a0, a1, -⟩ := idx_facts t
  show V m c main_v20 (((cfg0.win 1).blk t).view.emb (ix2 p f)) = V m c main_v20 (ix2 r f)
  refine congrArg _ ?_
  funext a; apply Fin.ext
  match a with
  | ⟨0, _⟩ => show win0_1.index t (0 : Fin 2) * 128 + 1 * p.val = r.val; omega
  | ⟨1, _⟩ => show win0_1.index t (1 : Fin 2) * 200 + 1 * f.val = f.val; omega

/-- Row `p` of point `t`'s block of the dense features is row `128 t + p` of the slice. -/
theorem dense_block (c : Dev nD) (t : Fin cfg0.N) (p : Fin 128) (n : Fin 100) (r : Fin 8192)
    (hr : r.val = t.val * 128 + p.val) :
    (iblk m c 2 t : Vec Ideal S128x100 .f32) (ix2 p n) = (V m c main_v2 : S8192x100.Idx → EReal) (ix2 r n) := by
  obtain ⟨-, -, -, -, -, a0, a1, -⟩ := idx_facts t
  show V m c main_v2 (((cfg0.win 2).blk t).view.emb (ix2 p n)) = V m c main_v2 (ix2 r n)
  refine congrArg _ ?_
  funext a; apply Fin.ext
  match a with
  | ⟨0, _⟩ => show win0_2.index t (0 : Fin 2) * 128 + 1 * p.val = r.val; omega
  | ⟨1, _⟩ => show win0_2.index t (1 : Fin 2) * 100 + 1 * n.val = n.val; omega

/-- The dense table is whole in its block at every point. -/
theorem table_block (c : Dev nD) (t : Fin cfg0.N) (n : Fin 100) (e : Fin 64) :
    (iblk m c 3 t : Vec Ideal S100x64 .f32) (ix2 n e) = (V m c main_arg4 : S100x64.Idx → EReal) (ix2 n e) := by
  obtain ⟨-, -, -, -, -, -, -, a0, a1, -⟩ := idx_facts t
  show V m c main_arg4 (((cfg0.win 3).blk t).view.emb (ix2 n e)) = V m c main_arg4 (ix2 n e)
  refine congrArg _ ?_
  funext a; apply Fin.ext
  match a with
  | ⟨0, _⟩ => show win0_3.index t (0 : Fin 2) * 100 + 1 * n.val = n.val; omega
  | ⟨1, _⟩ => show win0_3.index t (1 : Fin 2) * 64 + 1 * e.val = e.val; omega

/-- The dense weights are whole in their block at every point. -/
theorem dweights_block (c : Dev nD) (t : Fin cfg0.N) (n : Fin 100) (u : Fin 1) :
    (iblk m c 4 t : Vec Ideal S100x1 .f32) (ix2 n u) = (V m c main_arg2 : S100x1.Idx → EReal) (ix2 n u) := by
  obtain ⟨-, -, -, -, -, -, -, -, -, a0, a1, -⟩ := idx_facts t
  show V m c main_arg2 (((cfg0.win 4).blk t).view.emb (ix2 n u)) = V m c main_arg2 (ix2 n u)
  refine congrArg _ ?_
  funext a; apply Fin.ext
  match a with
  | ⟨0, _⟩ => show win0_4.index t (0 : Fin 2) * 100 + 1 * n.val = n.val; omega
  | ⟨1, _⟩ => show win0_4.index t (1 : Fin 2) * 1 + 1 * u.val = u.val; omega

/-- The bias is whole in its block at every point. -/
theorem bias_block (c : Dev nD) (t : Fin cfg0.N) (u : Fin 1) :
    (iblk m c 5 t : Vec Ideal S1 .f32) (ix1 u) = (V m c main_arg5 : S1.Idx → EReal) (ix1 u) := by
  obtain ⟨-, -, -, -, -, -, -, -, -, -, -, a0, -⟩ := idx_facts t
  show V m c main_arg5 (((cfg0.win 5).blk t).view.emb (ix1 u)) = V m c main_arg5 (ix1 u)
  refine congrArg _ ?_
  funext a; apply Fin.ext
  match a with
  | ⟨0, _⟩ => show win0_5.index t (0 : Fin 1) * 1 + 1 * u.val = u.val; omega

/-- The body's stored value at row `p` of point `t` is row `128 t + p` of the layer function. -/
theorem block_row (c : Dev nD) (t : Fin cfg0.N) (p : Fin 128) (u : Fin 1) (r : Fin 8192) (hr : r.val = t.val * 128 + p.val) :
    k0_pay1 (F := Ideal) (iblk m c 0 t) (iblk m c 1 t) (iblk m c 2 t) (iblk m c 3 t) (iblk m c 4 t) (iblk m c 5 t) (ix2 p u)
      = Cert.FM.layerRow (Ideal.ofBits .f32 0x3F000000#32) (V m c main_v20) (V m c main_v9) (V m c main_v2)
          (V m c main_arg4) (V m c main_arg2) (V m c main_arg5) r := by
  refine (Cert.KernelIdeal.Block.payload_apply (iblk m c 0 t) (iblk m c 1 t) (iblk m c 2 t) (iblk m c 3 t) (iblk m c 4 t)
    (iblk m c 5 t) p u).trans ?_
  unfold Cert.FM.layerRow
  refine Cert.FM.row_congr _ ?_ ?_ ?_ ?_ ?_ ?_
  · exact bias_block m c t (0 : Fin 1)
  · exact fun f => weights_block m c t p f r hr
  · exact fun f e => embeddings_block m c t p f e r hr
  · exact fun n => dense_block m c t p n r hr
  · exact fun n e => table_block m c t n e
  · exact fun n => dweights_block m c t n (0 : Fin 1)

/-- The body's stored value at an index `y` of point `t`'s block is the layer function at that index's place in the
    result array: row `128 t + y 0`. -/
theorem block_entry (c : Dev nD) (t : Fin cfg0.N) (y : S128x1.Idx) :
    k0_pay1 (F := Ideal) (iblk m c 0 t) (iblk m c 1 t) (iblk m c 2 t) (iblk m c 3 t) (iblk m c 4 t) (iblk m c 5 t) y
      = entryLayer m c (((cfg0.win 6).blk t).view.emb y) := by
  obtain ⟨p, u, rfl⟩ : ∃ (p : Fin 128) (u : Fin 1), y = ix2 p u := ⟨y 0, y 1, eq_ix2 y⟩
  obtain ⟨-, -, -, -, -, -, -, -, -, -, -, -, a0, a1⟩ := idx_facts t
  have hN : cfg0.N = 64 := N_0
  have ht : t.val < cfg0.N := t.isLt
  have hp : p.val < 128 := p.isLt
  refine (block_row m c t p u ⟨t.val * 128 + p.val, by omega⟩ rfl).trans ?_
  show _ = Cert.FM.layerRow _ _ _ _ _ _ _ _
  refine congrArg _ (Fin.ext ?_)
  show t.val * 128 + p.val = win0_6.index t (0 : Fin 2) * 128 + 1 * p.val
  omega

/-- WHAT POINT `t` WRITES BACK is block `t` of the layer function of the arrays as the region finds them. -/
theorem flushed_eq (c : Dev nD) (t : Fin cfg0.N) :
    (dats m 0 c).flushed 6 t = ((cfg0.win 6).blk t).view.read (Elt Ideal) (entryLayer m c) := by
  rw [flushed6]
  unfold out0_6
  rw [View.canon_unit_zero hz2]
  simp only [View.ld_unit_zero (S := S128x200x64) hz3, View.ld_unit_zero (S := S128x200) hz2,
    View.ld_unit_zero (S := S128x100) hz2, View.ld_unit_zero (S := S100x64) hz2, View.ld_unit_zero (S := S100x1) hz2,
    View.ld_unit_zero (S := S1) hz1]
  funext j
  exact block_entry m c t j

/-- An index of the result is in point `t`'s block iff each coordinate is in the block's range on its axis. -/
theorem mem_blk (t : Fin cfg0.N) (i : S8192x1.Idx) :
    i ∈ ((cfg0.win 6).blk t).view.set ↔ ∀ a : Fin 2, win0_6.index t a * S128x1.size a ≤ (i a).val ∧ (i a).val < win0_6.index t a * S128x1.size a + S128x1.size a := by
  show i ∈ ((View.whole main_v21).slice (win0_6.rect t)).set ↔ _
  rw [View.set_slice_whole, Rect.mem_set_unit]
  exact Iff.rfl

/-- Row `r` of the result lies in the block of point `r / 128`. -/
theorem cover (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  have hN : cfg0.N = 64 := N_0
  refine ⟨⟨(i 0).val / 128, by rw [hN]; omega⟩, flush0_6 _, ?_⟩
  obtain ⟨-, -, -, -, -, -, -, -, -, -, -, -, a0, a1⟩ := idx_facts ⟨(i 0).val / 128, by rw [hN]; omega⟩
  rw [mem_blk]
  intro a
  match a with
  | ⟨0, _⟩ =>
    show win0_6.index ⟨(i 0).val / 128, _⟩ (0 : Fin 2) * 128 ≤ (i 0).val ∧ (i 0).val < win0_6.index ⟨(i 0).val / 128, _⟩ (0 : Fin 2) * 128 + 128
    rw [a0]; show (i 0).val / 128 * 128 ≤ (i 0).val ∧ (i 0).val < (i 0).val / 128 * 128 + 128; omega
  | ⟨1, _⟩ =>
    show win0_6.index ⟨(i 0).val / 128, _⟩ (1 : Fin 2) * 1 ≤ (i 1).val ∧ (i 1).val < win0_6.index ⟨(i 0).val / 128, _⟩ (1 : Fin 2) * 1 + 1
    rw [a1]; omega

/-- THE RESULT ARRAY after the run is the layer function of the arrays as the region finds them. -/
theorem final (c : Dev nD) : (dats m 0 c).arrAt 6 cfg0.N = entryLayer m c :=
  (dats m 0 c).arrAt_eq_of_cover 6 (entryLayer m c) (fun t _ => flushed_eq m c t) cover

/-- The kernel's run, read: the result array at the layer function, the arguments unchanged. -/
theorem run : θ_run defs (onTc (τ := τ) (main (F := Ideal))) ⟨m, fun _ => 0, ρ⟩ fun r => ∀ c : Dev nD,
      r.2.mem ((c : Thread nD τ).loc main_v21) = entryLayer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Rows

end
-- ==== Proof.FmReference.lean ====
/-
  The reference computes the layer function.

  The reference's last stage, as a function of its six arguments, is `Cert.FM.layer` of three arrays it builds on the
  way — the gathered weights, the gathered embeddings and the dense slice of the input — and of the dense table, the
  dense weights and the bias. Read row by row: every reduction is a sum from zero over one axis; the dense first-order
  term is a matrix product with a one-column matrix whose single column is then "summed"; the dense second-order terms
  are sums over the features of the product `x n * v n e` and of its square, the latter the product of the squares
  (`Cert.FM.sq_mul`).
-/
import proofs.«120599_j45595372814827_2_alg».proof.Proof.Gen.ReferenceIdeal.Read
import proofs.«120599_j45595372814827_2_alg».proof.Proof.FmSpec

noncomputable section

namespace Cert.ReferenceIdeal.Layer

open Cert.ReferenceIdeal Cert.ReferenceIdeal.Gen Cert.ReferenceIdeal.Read Idealize.ShloMosaic Idealize.ShloMosaic.ValueIdx

variable (x0 : (⟨S8192x300, .f32⟩ : BufTy).Contents (Elt Ideal)) (x1 : (⟨S1000000x1, .f32⟩ : BufTy).Contents (Elt Ideal))
  (x2 : (⟨S100x1, .f32⟩ : BufTy).Contents (Elt Ideal)) (x3 : (⟨S1000000x64, .f32⟩ : BufTy).Contents (Elt Ideal))
  (x4 : (⟨S100x64, .f32⟩ : BufTy).Contents (Elt Ideal)) (x5 : (⟨S1, .f32⟩ : BufTy).Contents (Elt Ideal))

/-- A sum that starts from the zero word is the sum. -/
theorem from_zero (s : EReal) : Ideal.ofBits .f32 0x00000000#32 + s = s := by rw [Ideal.ofBits_zero_f32, zero_add]

/-- The categorical first-order term of row `r`: the gathered weights summed over the fields. -/
theorem weightSum (r : Fin 8192) :
    val_main_v14 (F := Ideal) x0 x1 (ix1 r) = ∑ f : Fin 200, val_main_v13 (F := Ideal) x0 x1 (ix2 r f) := by
  rw [val_main_v14_apply]
  refine (from_zero _).trans (Finset.sum_congr rfl fun k _ => congrArg _ ?_)
  funext a; apply Fin.ext; match a with | ⟨0, _⟩ => rfl | ⟨1, _⟩ => rfl

/-- The dense features times the one-column weight matrix, at row `r`. -/
theorem denseDot (r : Fin 8192) (u : Fin 1) :
    val_main_v15 (F := Ideal) x0 x2 (ix2 r u) = ∑ n : Fin 100, val_main_v2 (F := Ideal) x0 (ix2 r n) * x2 (ix2 n u) := by
  rw [val_main_v15_apply]
  refine Finset.sum_congr rfl fun k _ => congrArg₂ (· * ·) (congrArg _ ?_) (congrArg _ ?_)
  · funext a; apply Fin.ext; match a with | ⟨0, _⟩ => rfl | ⟨1, _⟩ => rfl
  · funext a; apply Fin.ext; match a with | ⟨0, _⟩ => rfl | ⟨1, _⟩ => rfl

/-- The dense first-order term of row `r`: the product's single column, summed from zero. -/
theorem denseSum (r : Fin 8192) :
    val_main_v16 (F := Ideal) x0 x2 (ix1 r) = ∑ n : Fin 100, val_main_v2 (F := Ideal) x0 (ix2 r n) * x2 (ix2 n (0 : Fin 1)) := by
  rw [val_main_v16_apply]
  refine (from_zero _).trans ?_
  rw [Fin.sum_univ_one, ← denseDot x0 x2 r (0 : Fin 1)]
  refine congrArg _ ?_
  funext a; apply Fin.ext; match a with | ⟨0, _⟩ => rfl | ⟨1, _⟩ => rfl

/-- The dense feature `n` of row `r` scaled by its embedding's coordinate `e`. -/
theorem denseProduct (r : Fin 8192) (n : Fin 100) (e : Fin 64) :
    val_main_v29 (F := Ideal) x0 x4 (ix3 r n e) = val_main_v2 (F := Ideal) x0 (ix2 r n) * x4 (ix2 n e) := by
  rw [val_main_v29_apply, val_main_v27_apply, val_main_v25_apply, val_main_v28_apply, val_main_v26_apply]
  refine congrArg₂ (· * ·) (congrArg _ ?_) (congrArg _ ?_)
  · funext a; apply Fin.ext; match a with | ⟨0, _⟩ => rfl | ⟨1, _⟩ => rfl
  · funext a; apply Fin.ext; match a with | ⟨0, _⟩ => rfl | ⟨1, _⟩ => rfl

/-- The gathered embeddings of row `r` summed over the fields, at coordinate `e`. -/
theorem embedFieldSum (r : Fin 8192) (e : Fin 64) :
    val_main_v30 (F := Ideal) x0 x3 (ix2 r e) = ∑ f : Fin 200, val_main_v24 (F := Ideal) x0 x3 (ix3 r f e) := by
  rw [val_main_v30_apply]
  refine (from_zero _).trans (Finset.sum_congr rfl fun k _ => congrArg _ ?_)
  funext a; apply Fin.ext; match a with | ⟨0, _⟩ => rfl | ⟨1, _⟩ => rfl | ⟨2, _⟩ => rfl

/-- The dense part of the field sum of row `r` at coordinate `e`. -/
theorem denseFieldSum (r : Fin 8192) (e : Fin 64) :
    val_main_v31 (F := Ideal) x0 x4 (ix2 r e) = ∑ n : Fin 100, val_main_v2 (F := Ideal) x0 (ix2 r n) * x4 (ix2 n e) := by
  rw [val_main_v31_apply]
  refine (from_zero _).trans (Finset.sum_congr rfl fun k _ => ?_)
  rw [← denseProduct x0 x4 r k e]
  refine congrArg _ ?_
  funext a; apply Fin.ext; match a with | ⟨0, _⟩ => rfl | ⟨1, _⟩ => rfl | ⟨2, _⟩ => rfl

/-- The squared gathered embeddings of row `r` summed over the fields, at coordinate `e`. -/
theorem embedSquareSum (r : Fin 8192) (e : Fin 64) :
    val_main_v34 (F := Ideal) x0 x3 (ix2 r e)
      = ∑ f : Fin 200, val_main_v24 (F := Ideal) x0 x3 (ix3 r f e) * val_main_v24 (F := Ideal) x0 x3 (ix3 r f e) := by
  rw [val_main_v34_apply]
  refine (from_zero _).trans (Finset.sum_congr rfl fun k _ => ?_)
  have hk : idx_main_v34 (ix2 r e) k = ix3 r k e := by
    funext a; apply Fin.ext; match a with | ⟨0, _⟩ => rfl | ⟨1, _⟩ => rfl | ⟨2, _⟩ => rfl
  rw [hk, val_main_v33_apply]
  rfl

/-- The dense part of the squares of row `r` at coordinate `e`: the square of each product is the product of the squares. -/
theorem denseSquareSum (r : Fin 8192) (e : Fin 64) :
    val_main_v36 (F := Ideal) x0 x4 (ix2 r e)
      = ∑ n : Fin 100, (val_main_v2 (F := Ideal) x0 (ix2 r n) * val_main_v2 (F := Ideal) x0 (ix2 r n)) * (x4 (ix2 n e) * x4 (ix2 n e)) := by
  rw [val_main_v36_apply]
  refine (from_zero _).trans (Finset.sum_congr rfl fun k _ => ?_)
  have hk : idx_main_v36 (ix2 r e) k = ix3 r k e := by
    funext a; apply Fin.ext; match a with | ⟨0, _⟩ => rfl | ⟨1, _⟩ => rfl | ⟨2, _⟩ => rfl
  rw [hk, val_main_v35_apply, denseProduct]
  exact Cert.FM.sq_mul _ _

/-- The pairwise interactions of row `r` at coordinate `e`: the field sum squared, minus the summed squares. -/
theorem interaction (r : Fin 8192) (e : Fin 64) :
    val_main_v39 (F := Ideal) x0 x3 x4 (ix2 r e)
      = ((∑ f : Fin 200, val_main_v24 (F := Ideal) x0 x3 (ix3 r f e)) + ∑ n : Fin 100, val_main_v2 (F := Ideal) x0 (ix2 r n) * x4 (ix2 n e))
          * ((∑ f : Fin 200, val_main_v24 (F := Ideal) x0 x3 (ix3 r f e)) + ∑ n : Fin 100, val_main_v2 (F := Ideal) x0 (ix2 r n) * x4 (ix2 n e))
        - ((∑ f : Fin 200, val_main_v24 (F := Ideal) x0 x3 (ix3 r f e) * val_main_v24 (F := Ideal) x0 x3 (ix3 r f e))
            + ∑ n : Fin 100, (val_main_v2 (F := Ideal) x0 (ix2 r n) * val_main_v2 (F := Ideal) x0 (ix2 r n)) * (x4 (ix2 n e) * x4 (ix2 n e))) := by
  rw [val_main_v39_apply, val_main_v38_apply, val_main_v37_apply, val_main_v32_apply,
    embedFieldSum, denseFieldSum, embedSquareSum, denseSquareSum]
  rfl

/-- The interactions of row `r` summed over the embedding coordinates. -/
theorem interactionSum (r : Fin 8192) :
    val_main_v40 (F := Ideal) x0 x3 x4 (ix1 r) = ∑ e : Fin 64, val_main_v39 (F := Ideal) x0 x3 x4 (ix2 r e) := by
  rw [val_main_v40_apply]
  refine (from_zero _).trans (Finset.sum_congr rfl fun k _ => congrArg _ ?_)
  funext a; apply Fin.ext; match a with | ⟨0, _⟩ => rfl | ⟨1, _⟩ => rfl

/-- The bias vector's one entry, laid over the batch. -/
theorem biasEntry (r : Fin 8192) : val_main_v45 (F := Ideal) x5 (ix1 r) = x5 (ix1 (0 : Fin 1)) := by
  rw [val_main_v45_apply]
  unfold val_main_v44
  exact shapeCast_apply x5 shapeCasts_S1_S_ _ _ rfl

/-- THE REFERENCE IS THE LAYER FUNCTION of its gathered weights, gathered embeddings and dense slice. -/
theorem result_eq :
    val_main_v47 (F := Ideal) x0 x1 x2 x3 x4 x5
      = Cert.FM.layer (Ideal.ofBits .f32 0x3F000000#32) (val_main_v13 (F := Ideal) x0 x1) (val_main_v24 (F := Ideal) x0 x3)
          (val_main_v2 (F := Ideal) x0) x4 x2 x5 := by
  funext i
  obtain ⟨r, u, rfl⟩ : ∃ (r : Fin 8192) (u : Fin 1), i = ix2 r u := ⟨i 0, i 1, eq_ix2 i⟩
  rw [Cert.FM.layer_apply]
  unfold Cert.FM.layerRow Cert.FM.row
  have h47 : idx_main_v47 (ix2 r u) = ix1 r := by
    funext a; apply Fin.ext; match a with | ⟨0, _⟩ => rfl
  rw [val_main_v47_apply, h47, val_main_v46_apply, val_main_v43_apply, val_main_v17_apply, val_main_v42_apply,
    weightSum, denseSum, interactionSum, biasEntry, val_main_v41_apply]
  simp only [interaction]
  rfl

end Cert.ReferenceIdeal.Layer

end
-- ==== Proof.FmHostPrefix.lean ====
/-
  The arrays the kernel's region finds are the reference's own.

  Before its one region the kernel's program gathers, on the host, the categorical weights and embeddings at the
  integer-converted first 200 columns of the input (negative indices wrapped), and slices off the 100 dense columns.
  The reference performs the same operations on the same arguments, so the three arrays the region finds are the
  reference's stages of those names, as functions of the launch contents of the arguments: the same terms, operation
  by operation. Nothing about a gather is opened here.
-/
import proofs.«120599_j45595372814827_2_alg».proof.Proof.Gen.KernelIdeal.Frame
import proofs.«120599_j45595372814827_2_alg».proof.Proof.Gen.ReferenceIdeal.Read

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The dense features the region finds: the input's last 100 columns. -/
theorem dense_entry (c : Dev nD) :
    (V m c main_v2 : S8192x100.Idx → EReal)
      = Cert.ReferenceIdeal.Read.val_main_v2 (F := Ideal) (m ((c : Thread nD τ).loc main_arg0)) := by
  dsimp only [V, hostOps0]
  after_results_simp
  rfl

/-- The gathered categorical weights the region finds. -/
theorem weights_entry (c : Dev nD) :
    (V m c main_v20 : S8192x200.Idx → EReal)
      = Cert.ReferenceIdeal.Read.val_main_v13 (F := Ideal) (m ((c : Thread nD τ).loc main_arg0)) (m ((c : Thread nD τ).loc main_arg1)) := by
  dsimp only [V, hostOps0]
  after_results_simp
  rfl

/-- The gathered categorical embeddings the region finds. -/
theorem embeddings_entry (c : Dev nD) :
    (V m c main_v9 : S8192x200x64.Idx → EReal)
      = Cert.ReferenceIdeal.Read.val_main_v24 (F := Ideal) (m ((c : Thread nD τ).loc main_arg0)) (m ((c : Thread nD τ).loc main_arg3)) := by
  dsimp only [V, hostOps0]
  after_results_simp
  rfl

end Cert.KernelIdeal.Entry

end
-- ==== Proof.lean ====
/-
  A factorization-machine layer: the kernel against its jnp reference, on the extended reals.

  For each example of a batch of 8192 the layer gathers one scalar weight and one 64-coordinate embedding per
  categorical field (200 fields, their indices the integer-converted first 200 columns of the input), takes the 100
  remaining columns as dense features with their own embedding table and weights, and returns

    ∑ f, W f + ∑ n, x n * w n  +  1/2 * ∑ e, ((∑ f, S f e + ∑ n, x n * v n e)² − (∑ f, S f e² + ∑ n, (x n * v n e)²))  +  bias.

  Both programs perform the gathers and the slice on the host, by the same operations (Proof/FmHostPrefix.lean). The
  kernel then handles 128 examples per grid point: lane sums over the fields, and the dense sums as three matrix
  products, the squares as the product of the squared features with the squared table (Proof/FmKernelBlock.lean, one
  row of one block; Proof/FmKernelArray.lean, the 64 blocks tile the result). The reference sums the products
  `x n * v n e` and their squares directly (Proof/FmReference.lean). The two agree because the square of a product is
  the product of the squares and a sum from zero over one column is that column, both of which hold on all extended
  reals (Proof/FmSpec.lean): the finiteness of the inputs is not used. The kernel's idealization rewrote nothing.
-/
import proofs.«120599_j45595372814827_2_alg».proof.Defs
import proofs.«120599_j45595372814827_2_alg».proof.Proof.Gen.Kernel
import proofs.«120599_j45595372814827_2_alg».proof.Proof.Gen.Kernel.Skeleton
import proofs.«120599_j45595372814827_2_alg».proof.Proof.Gen.Kernel.Launch
import proofs.«120599_j45595372814827_2_alg».proof.Proof.Gen.Kernel.Points
import proofs.«120599_j45595372814827_2_alg».proof.Proof.Gen.Kernel.Frame
import proofs.«120599_j45595372814827_2_alg».proof.Proof.Gen.KernelIdeal
import proofs.«120599_j45595372814827_2_alg».proof.Proof.Gen.KernelIdeal.Skeleton
import proofs.«120599_j45595372814827_2_alg».proof.Proof.Gen.KernelIdeal.Launch
import proofs.«120599_j45595372814827_2_alg».proof.Proof.Gen.KernelIdeal.Points
import proofs.«120599_j45595372814827_2_alg».proof.Proof.Gen.KernelIdeal.Frame
import proofs.«120599_j45595372814827_2_alg».proof.Proof.Gen.ReferenceIdeal
import proofs.«120599_j45595372814827_2_alg».proof.Proof.Gen.Pre_finite_inputs
import proofs.«120599_j45595372814827_2_alg».proof.Proof.Gen.KernelIdeal.Value
import proofs.«120599_j45595372814827_2_alg».proof.Proof.Gen.ReferenceIdeal.Run
import proofs.«120599_j45595372814827_2_alg».proof.Proof.Gen.ReferenceIdeal.Read
import proofs.«120599_j45595372814827_2_alg».proof.Proof.FmKernelArray
import proofs.«120599_j45595372814827_2_alg».proof.Proof.FmReference
import proofs.«120599_j45595372814827_2_alg».proof.Proof.FmHostPrefix
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The layer function of the arrays the kernel's region finds is the layer function of the reference's stages of
    the same arguments: the three host-built arrays are the reference's, the three staged arguments are as launched. -/
theorem entryLayer_eq (m : (ℓ : Loc Cert.KernelIdeal.nD Cert.KernelIdeal.τ Cert.KernelIdeal.sig) → Buf (Elt Ideal) ℓ) (c : Dev Cert.KernelIdeal.nD) :
    Cert.KernelIdeal.Rows.entryLayer m c
      = Cert.FM.layer (Ideal.ofBits .f32 0x3F000000#32)
          (Cert.ReferenceIdeal.Read.val_main_v13 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)))
          (Cert.ReferenceIdeal.Read.val_main_v24 (F := Ideal) (m ((c : Thread Cert.KernelIdeal.nD Cert.KernelIdeal.τ).loc Cert.KernelIdeal.main_arg0)) (m ((c : Thread Cert.KernelIdeal.nD Cert.KernelIdeal.τ).loc Cert.KernelIdeal.main_arg3)))
          (Cert.ReferenceIdeal.Read.val_main_v2 (F := Ideal) (m ((c : Thread Cert.KernelIdeal.nD Cert.KernelIdeal.τ).loc Cert.KernelIdeal.main_arg0)))
          (m ((c : Thread Cert.KernelIdeal.nD Cert.KernelIdeal.τ).loc Cert.KernelIdeal.main_arg4))
          (m ((c : Thread Cert.KernelIdeal.nD Cert.KernelIdeal.τ).loc Cert.KernelIdeal.main_arg2))
          (m ((c : Thread Cert.KernelIdeal.nD Cert.KernelIdeal.τ).loc Cert.KernelIdeal.main_arg5)) := by
  unfold Cert.KernelIdeal.Rows.entryLayer
  rw [Cert.KernelIdeal.Entry.weights_entry m c, Cert.KernelIdeal.Entry.embeddings_entry m c, Cert.KernelIdeal.Entry.dense_entry m c,
    Cert.KernelIdeal.Gen.V_main_arg4 m c, Cert.KernelIdeal.Gen.V_main_arg2 m c, Cert.KernelIdeal.Gen.V_main_arg5 m c]

/-- At the ideal values the kernel's result array ends at the layer function of the arrays its region finds, the
    reference's at the layer function of its own stages of arguments that agree: one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Rows.entryLayer m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.ReferenceIdeal.Layer.result_eq,
    (hagree c).1, (hagree c).2.1, (hagree c).2.2.1, (hagree c).2.2.2.1, (hagree c).2.2.2.2.1, (hagree c).2.2.2.2.2]
  exact (entryLayer_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
